-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16384x64 .f32) (main_arg1 : FVec F S16384x64 .f32) (main_arg2 : FVec F S16384x16384 .f32) (main_arg3 : FVec F S64x64 .f32) (main_arg4 : FVec F S64x64 .f32) (main_arg5 : FVec F S64 .f32) (main_arg6 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩
abbrev S16384x128 : Shape := ⟨2, ![16384, 128]⟩
abbrev S1024x2048 : Shape := ⟨2, ![1024, 2048]⟩
abbrev S2048x64 : Shape := ⟨2, ![2048, 64]⟩
abbrev S1024x64 : Shape := ⟨2, ![1024, 64]⟩
abbrev S1024x128 : Shape := ⟨2, ![1024, 128]⟩
abbrev S1024x1 : Shape := ⟨2, ![1024, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x16384, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1024x128, .f32⟩
  | .local _ .vmem, ⟨11, _⟩ => ⟨S1024x128, .f32⟩
  | .local _ .vmem, ⟨12, _⟩ => ⟨S1024x64, .f32⟩
  | .local _ .vmem, ⟨13, _⟩ => ⟨S1024x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  reduces_S1024x2048_S1024 : S1024x2048.Reduces [1] S1024
  shapeCasts_S1024_S1024x1 : S1024.ShapeCasts S1024x1
  broadcasts_S1024x1_S1024x64 : S1024x1.Broadcasts S1024x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  concatenates_S1024x64_S1024x64_S1024x128_d1 : Shape.Concatenates [S1024x64, S1024x64] S1024x128 1
  inb_S1024x128_S1024x128_0_0 : ∀ a, (![0, 0] : Fin 2 → Nat) a + S1024x128.size a ≤ S1024x128.size a
  h_S1024x128 : 0 < S1024x128.numel
  dot_S1024x2048_S2048x64_S1024x64_1_0_0_1_n_n_wf : DotDims.WF S1024x2048 S2048x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .f32 = 32 ∨ (Rect.block (s := S16384x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S16384x128.size a
  hwx0_7 : ∀ i : grid0.Coords, EltTy.bits .f32 = 32 ∨ (Rect.block (s := S16384x128) S1024x128.size (cc0_transform_7 i) (hinb0_7 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x16384, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S1x64, .f32⟩
  | .hbm, ⟨23, _⟩ => ⟨S16384x64, .f32⟩
  | .hbm, ⟨24, _⟩ => ⟨S16384x64, .f32⟩
  | .hbm, ⟨25, _⟩ => ⟨S16384x128, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  concatenates_S16384x64_S16384x64_S16384x128_d1 : Shape.Concatenates [S16384x64, S16384x64] S16384x128 1
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.LibRangeTiles.lean ====
/-
  Sums taken tile by tile.

  A sequence `f 0, f 1, …` in an additive commutative monoid is laid out in tiles of `B` consecutive places:
  tile `K` holds the places `B * K + j` for `j < B`.  A computation that visits the tiles in order and adds each
  tile's total to a running accumulator holds, after `K` tiles, the sum of the first `B * K` places; one more tile
  adds the `B` places of tile `K` (`sum_range_tile_succ`).  Nothing but associativity and commutativity of `+` is used,
  so the law holds on the extended reals with infinities of both signs present.

  A sequence given only on `Fin N` is extended by zero to all of `ℕ` (`ext0`); its sum over the first `N` places is then
  the plain sum over `Fin N` (`sum_range_ext0`), and inside the range it reads the given value (`ext0_of_lt`).
-/
import Mathlib.Algebra.BigOperators.Group.Finset.Basic
import Mathlib.Algebra.BigOperators.Fin

namespace Cert.Lib.RangeTiles

open Finset

variable {M : Type*} [AddCommMonoid M]

/-- The sum over the first `B * (K + 1)` places is the sum over the first `B * K` places plus the total of tile `K`,
    whose places are `B * K + j` for `j : Fin B`. -/
theorem sum_range_tile_succ (f : ℕ → M) (B K : ℕ) :
    ∑ n ∈ range (B * (K + 1)), f n = ∑ n ∈ range (B * K), f n + ∑ j : Fin B, f (B * K + j.val) := by
  rw [Nat.mul_succ, Finset.sum_range_add]
  congr 1
  exact Finset.sum_range fun x => f (B * K + x)

/-- Before any tile the running sum is empty. -/
theorem sum_range_tile_zero (f : ℕ → M) (B : ℕ) : ∑ n ∈ range (B * 0), f n = 0 := by
  rw [Nat.mul_zero, Finset.sum_range_zero]

/-- A sequence on `Fin N` extended by zero to every natural number. -/
def ext0 (N : ℕ) (g : Fin N → M) (n : ℕ) : M := if h : n < N then g ⟨n, h⟩ else 0

/-- Inside the range the extension reads the given value. -/
theorem ext0_of_lt (N : ℕ) (g : Fin N → M) (n : ℕ) (h : n < N) : ext0 N g n = g ⟨n, h⟩ := dif_pos h

/-- The extension summed over the first `N` places is the sum over `Fin N`. -/
theorem sum_range_ext0 (N : ℕ) (g : Fin N → M) : ∑ n ∈ range N, ext0 N g n = ∑ n : Fin N, g n := by
  rw [Finset.sum_range]
  exact Finset.sum_congr rfl fun n _ => ext0_of_lt N g n.val n.isLt

end Cert.Lib.RangeTiles
-- ==== Proof.LibConcatCols.lean ====
/-
  Two blocks of equal width laid side by side.

  An `[a, b + b]` array formed by joining two `[a, b]` arrays along the column axis reads, at row `r` and column `c`,
  the left array at `(r, c)` when `c < b` and the right array at `(r, c - b)` otherwise.
-/
import Idealize.ShloMosaic.Lib.Pipeline.Value
import Idealize.ShloMosaic.Lib.ValueIdx

namespace Cert.Lib.ConcatCols

open Idealize.ShloMosaic Idealize.ShloMosaic.ValueIdx

/-- The join of two `[a, b]` arrays along columns, read at `(r, c)`: the left one below column `b`, the right one,
    shifted by `b`, from column `b` on. -/
theorem concat_cols_apply {α : Type} {a b n : ℕ} (hn : n = b + b) (x₁ x₂ : (⟨2, ![a, b]⟩ : Shape).Idx → α)
    (h : Shape.Concatenates [(⟨2, ![a, b]⟩ : Shape), (⟨2, ![a, b]⟩ : Shape)] (⟨2, ![a, n]⟩ : Shape) 1)
    (r : Fin a) (c : Fin n) :
    concatenate (⟨2, ![a, n]⟩ : Shape) 1 [⟨(⟨2, ![a, b]⟩ : Shape), x₁⟩, ⟨(⟨2, ![a, b]⟩ : Shape), x₂⟩] h (ix2 r c)
      = if hc : c.val < b then x₁ (ix2 r ⟨c.val, hc⟩)
        else x₂ (ix2 r ⟨c.val - b, by have := c.isLt; omega⟩) := by
  by_cases hc : c.val < b
  · rw [dif_pos hc]
    exact concatenate_pair_apply_left 1 x₁ x₂ h (ix2 r c) rfl (ix2 r ⟨c.val, hc⟩)
      (fun bb => by match bb with | ⟨0, _⟩ => rfl | ⟨1, _⟩ => rfl)
  · rw [dif_neg hc]
    exact concatenate_pair_apply_right 1 x₁ x₂ h (ix2 r c) rfl rfl (ix2 r ⟨c.val - b, by have := c.isLt; omega⟩)
      (fun bb hb => by match bb with | ⟨0, _⟩ => rfl | ⟨1, _⟩ => exact absurd rfl hb)
      (by show (c.val - b) + b = c.val; omega)

end Cert.Lib.ConcatCols
-- ==== Proof.Pieces.lean ====
/-
  What each grid point leaves behind, case by case, as pure values.

  The kernel walks a [16, 8] grid: row block `i` of the aggregation matrix, and along it 8 column tiles `k`.  Two scratch
  accumulators are carried along a row block: the [1024, 64] numerator and the [1024, 1] row sum.  Three cases arise.

    k = 0      both accumulators are set to zero and the first tile is added:  zero + tile.
    0 < k < 7  the tile is added to what the point before left:                acc + tile.
    k = 7      the same, and then the finished [1024, 128] block is computed from the two accumulators just stored.

  Every store covers its whole buffer and every load reads a whole buffer, so what a case leaves in a buffer is its last
  store's value with each load replaced by the contents it read: the block's inputs, the carried accumulator, or (at
  k = 0 and k = 7) the value the same point stored a moment earlier.
-/
import proofs.«126047_j55594056680017_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-! ## Case B (0 < k < 7): one more tile into both accumulators -/

theorem sB0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1024x128 .f32) (harg9 : arg9.IsWhole) (arg10 : Memref sig .tc .vmem S1024x64 .f32) (harg10 : arg10.IsWhole) (arg11 : Memref sig .tc .vmem S1024x1 .f32) (harg11 : arg11.IsWhole) (hc0 : ¬cond0_0 i) (hc1 : ¬cond0_1 i) (x0 : Vec F S1024x2048 .f32) (x1 : Vec F S2048x64 .f32) (x2 : Vec F S1024x64 .f32) (x3 : Vec F S64x64 .f32) (x4 : Vec F S64x64 .f32) (x5 : Vec F S1x64 .f32) (x6 : Vec F S1x64 .f32) (xs0 : Vec F S1024x64 .f32) (xs1 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words

  rw [View.canon_unit_zero hz]
  simp only [View.readAt_eq_ld, harg2.read_unread, harg3.read_unread, harg10.read_unread,
    View.ld_unit_zero (S := S1024x2048) hz, View.ld_unit_zero (S := S2048x64) hz, View.ld_unit_zero (S := S1024x64) hz]

theorem sB1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1024x128 .f32) (harg9 : arg9.IsWhole) (arg10 : Memref sig .tc .vmem S1024x64 .f32) (harg10 : arg10.IsWhole) (arg11 : Memref sig .tc .vmem S1024x1 .f32) (harg11 : arg11.IsWhole) (hc0 : ¬cond0_0 i) (hc1 : ¬cond0_1 i) (x0 : Vec F S1024x2048 .f32) (x1 : Vec F S2048x64 .f32) (x2 : Vec F S1024x64 .f32) (x3 : Vec F S64x64 .f32) (x4 : Vec F S64x64 .f32) (x5 : Vec F S1x64 .f32) (x6 : Vec F S1x64 .f32) (xs0 : Vec F S1024x64 .f32) (xs1 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg11.read_unread,
    View.ld_unit_zero (S := S1024x2048) hz, View.ld_unit_zero (S := S1024x1) hz]

/-! ## Case C (k = 7): the last tile, then the finished block -/

theorem sC0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1024x128 .f32) (harg9 : arg9.IsWhole) (arg10 : Memref sig .tc .vmem S1024x64 .f32) (harg10 : arg10.IsWhole) (arg11 : Memref sig .tc .vmem S1024x1 .f32) (harg11 : arg11.IsWhole) (hc0 : ¬cond0_0 i) (hc1 : cond0_1 i) (x0 : Vec F S1024x2048 .f32) (x1 : Vec F S2048x64 .f32) (x2 : Vec F S1024x64 .f32) (x3 : Vec F S64x64 .f32) (x4 : Vec F S64x64 .f32) (x5 : Vec F S1x64 .f32) (x6 : Vec F S1x64 .f32) (xs0 : Vec F S1024x64 .f32) (xs1 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg10.read_unread,
    View.ld_unit_zero (S := S1024x2048) hz, View.ld_unit_zero (S := S2048x64) hz, View.ld_unit_zero (S := S1024x64) hz]

theorem sC1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1024x128 .f32) (harg9 : arg9.IsWhole) (arg10 : Memref sig .tc .vmem S1024x64 .f32) (harg10 : arg10.IsWhole) (arg11 : Memref sig .tc .vmem S1024x1 .f32) (harg11 : arg11.IsWhole) (hc0 : ¬cond0_0 i) (hc1 : cond0_1 i) (x0 : Vec F S1024x2048 .f32) (x1 : Vec F S2048x64 .f32) (x2 : Vec F S1024x64 .f32) (x3 : Vec F S64x64 .f32) (x4 : Vec F S64x64 .f32) (x5 : Vec F S1x64 .f32) (x6 : Vec F S1x64 .f32) (xs0 : Vec F S1024x64 .f32) (xs1 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg11.read_unread,
    View.ld_unit_zero (S := S1024x2048) hz, View.ld_unit_zero (S := S1024x1) hz]

theorem oC7 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1024x128 .f32) (harg9 : arg9.IsWhole) (arg10 : Memref sig .tc .vmem S1024x64 .f32) (harg10 : arg10.IsWhole) (arg11 : Memref sig .tc .vmem S1024x1 .f32) (harg11 : arg11.IsWhole) (hc0 : ¬cond0_0 i) (hc1 : cond0_1 i) (x0 : Vec F S1024x2048 .f32) (x1 : Vec F S2048x64 .f32) (x2 : Vec F S1024x64 .f32) (x3 : Vec F S64x64 .f32) (x4 : Vec F S64x64 .f32) (x5 : Vec F S1x64 .f32) (x6 : Vec F S1x64 .f32) (xs0 : Vec F S1024x64 .f32) (xs1 : Vec F S1024x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay5 (k0_pay4 x0 xs1) (k0_pay3 x0 x1 xs0) x4 x6 x2 x3 x5 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words

  rw [View.canon_unit_zero hz]
  simp only [View.readAt_eq_ld, harg2.read_unread, harg3.read_unread, harg4.read_unread, harg5.read_unread,
    harg6.read_unread, harg7.read_unread, harg8.read_unread, harg10.read_unread, harg11.read_unread,
    View.ld_unit_zero (S := S1024x2048) hz, View.ld_unit_zero (S := S2048x64) hz, View.ld_unit_zero (S := S1024x64) hz,
    View.ld_unit_zero (S := S64x64) hz, View.ld_unit_zero (S := S1x64) hz, View.ld_unit_zero (S := S1024x1) hz,
    View.readCov_unit_zero (S := S1024x1) _ hz, View.readCov_unit_zero (S := S1024x64) _ hz]

/-! ## Case A (k = 0): both accumulators zeroed, then the first tile -/

theorem sA0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1024x128 .f32) (harg9 : arg9.IsWhole) (arg10 : Memref sig .tc .vmem S1024x64 .f32) (harg10 : arg10.IsWhole) (arg11 : Memref sig .tc .vmem S1024x1 .f32) (harg11 : arg11.IsWhole) (hc0 : cond0_0 i) (hc1 : ¬cond0_1 i) (x0 : Vec F S1024x2048 .f32) (x1 : Vec F S2048x64 .f32) (x2 : Vec F S1024x64 .f32) (x3 : Vec F S64x64 .f32) (x4 : Vec F S64x64 .f32) (x5 : Vec F S1x64 .f32) (x6 : Vec F S1x64 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay3 x0 x1 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words

  rw [View.canon_cons_unit_zero (S := S1024x64) hz, View.readCov_unit_zero (S := S1024x64) _ hz]
  simp only [View.readAt_eq_ld, harg2.read_unread, harg3.read_unread,
    View.ld_unit_zero (S := S1024x2048) hz, View.ld_unit_zero (S := S2048x64) hz]

theorem sA1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1024x128 .f32) (harg9 : arg9.IsWhole) (arg10 : Memref sig .tc .vmem S1024x64 .f32) (harg10 : arg10.IsWhole) (arg11 : Memref sig .tc .vmem S1024x1 .f32) (harg11 : arg11.IsWhole) (hc0 : cond0_0 i) (hc1 : ¬cond0_1 i) (x0 : Vec F S1024x2048 .f32) (x1 : Vec F S2048x64 .f32) (x2 : Vec F S1024x64 .f32) (x3 : Vec F S64x64 .f32) (x4 : Vec F S64x64 .f32) (x5 : Vec F S1x64 .f32) (x6 : Vec F S1x64 .f32) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay4 x0 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1) hz, View.readCov_unit_zero (S := S1024x1) _ hz]
  simp only [View.readAt_eq_ld, harg2.read_unread, View.ld_unit_zero (S := S1024x2048) hz]

end Cert.KernelIdeal.Pieces
end
-- ==== Proof.Payload.lean ====
/-
  The kernel's stored values read entry by entry, over the extended reals.

  At the ideal values a change of float format is the identity and a matrix product into a zero accumulator is the plain
  sum of products, so:

    the numerator's store at (p, d)  is  acc (p, d) + ∑ j < 2048, a (p, j) · x (j, d)
    the row sum's store at (p, 0)    is  acc (p, 0) + ∑ j < 2048, a (p, j)
    the finished block at (p, c)     is  (∑ d, sx (p, d) · ws (d, c)) + bs (0, c)                              for c < 64,
                                         (∑ d, (num (p, d) / max (deg (p, 0)) 1) · wn (d, c - 64)) + bn (0, c - 64)  otherwise.
-/
import proofs.«126047_j55594056680017_2_alg».proof.Proof.Gen.KernelIdeal.Skeleton
import proofs.«126047_j55594056680017_2_alg».proof.Proof.LibConcatCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx

/-! ## The two matrix products as sums -/

theorem big_lhs0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem big_lhs1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem big_rhs0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem big_rhs1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

theorem small_lhs0 (i : S1024x64.Idx) (q : dot_S1024x64_S64x64_S1024x64_1_0_0_1_n_n.contr.Idx) : (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem small_lhs1 (i : S1024x64.Idx) (q : dot_S1024x64_S64x64_S1024x64_1_0_0_1_n_n.contr.Idx) : (dot_S1024x64_S64x64_S1024x64_1_0_0_1_n_n.lhsIdx i q 1).val = (q ⟨0, by decide⟩).val :=
  dot_S1024x64_S64x64_S1024x64_1_0_0_1_n_n.lhsIdx_val_of_single rfl i q
theorem small_rhs0 (i : S1024x64.Idx) (q : dot_S1024x64_S64x64_S1024x64_1_0_0_1_n_n.contr.Idx) : (dot_S1024x64_S64x64_S1024x64_1_0_0_1_n_n.rhsIdx i q 0).val = (q ⟨0, by decide⟩).val :=
  dot_S1024x64_S64x64_S1024x64_1_0_0_1_n_n.rhsIdx_val_of_single rfl i q
theorem small_rhs1 (i : S1024x64.Idx) (q : dot_S1024x64_S64x64_S1024x64_1_0_0_1_n_n.contr.Idx) : (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- A [1024, 2048] tile times a [2048, 64] tile into a zero accumulator, at (p, d): the sum over the tile's 2048 places. -/
theorem big_apply (l : FVec Ideal S1024x2048 .bf16) (r : FVec Ideal S2048x64 .bf16) (p : Fin 1024) (d : Fin 64) :
    matmul dot_S1024x2048_S2048x64_S1024x64_1_0_0_1_n_n none l r (constant S1024x64 .f32 0x00000000#32) (ix2 p d) = ∑ j : Fin 2048, l (ix2 p j) * r (ix2 j d) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p d) ((ValueIdx.contrEquiv1 dot_S1024x2048_S2048x64_S1024x64_1_0_0_1_n_n 2048 rfl rfl).symm k) = ix2 p k := funext fun a => Fin.ext (by
    match a with
    | ⟨0, _⟩ => exact big_lhs0 _ _
    | ⟨1, _⟩ => exact (big_lhs1 _ _).trans hk)
  have er : dot_S1024x2048_S2048x64_S1024x64_1_0_0_1_n_n.rhsIdx (ix2 p d) ((ValueIdx.contrEquiv1 dot_S1024x2048_S2048x64_S1024x64_1_0_0_1_n_n 2048 rfl rfl).symm k) = ix2 k d := funext fun a => Fin.ext (by
    match a with
    | ⟨0, _⟩ => exact (big_rhs0 _ _).trans hk
    | ⟨1, _⟩ => exact big_rhs1 _ _)
  rw [el, er]

/-- A [1024, 64] block times a [64, 64] weight matrix into a zero accumulator, at (p, d): the sum over the 64 features. -/
theorem small_apply (l : FVec Ideal S1024x64 .bf16) (r : FVec Ideal S64x64 .bf16) (p : Fin 1024) (d : Fin 64) :
    matmul dot_S1024x64_S64x64_S1024x64_1_0_0_1_n_n none l r (constant S1024x64 .f32 0x00000000#32) (ix2 p d) = ∑ j : Fin 64, l (ix2 p j) * r (ix2 j d) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 p d) ((ValueIdx.contrEquiv1 dot_S1024x64_S64x64_S1024x64_1_0_0_1_n_n 64 rfl rfl).symm k) = ix2 p k := funext fun a => Fin.ext (by
    match a with
    | ⟨0, _⟩ => exact small_lhs0 _ _
    | ⟨1, _⟩ => exact (small_lhs1 _ _).trans hk)
  have er : dot_S1024x64_S64x64_S1024x64_1_0_0_1_n_n.rhsIdx (ix2 p d) ((ValueIdx.contrEquiv1 dot_S1024x64_S64x64_S1024x64_1_0_0_1_n_n 64 rfl rfl).symm k) = ix2 k d := funext fun a => Fin.ext (by
    match a with
    | ⟨0, _⟩ => exact (small_rhs0 _ _).trans hk
    | ⟨1, _⟩ => exact small_rhs1 _ _)
  rw [el, er]

/-! ## The accumulators' stores -/

/-- The numerator's store: what the accumulator held plus the tile's products summed. -/
theorem pay3_apply (x0 : Vec Ideal S1024x2048 .f32) (x1 : Vec Ideal S2048x64 .f32) (acc : Vec Ideal S1024x64 .f32)
    (p : Fin 1024) (d : Fin 64) :
    k0_pay3 (F := Ideal) x0 x1 acc (ix2 p d) = acc (ix2 p d) + ∑ j : Fin 2048, x0 (ix2 p j) * x1 (ix2 j d) := by
  unfold k0_pay3

  refine (congrFun (shapeCast_self _ _) (ix2 p d)).trans ?_
  refine (addf_apply _ _ _).trans ?_
  exact congrArg (acc (ix2 p d) + ·) (big_apply _ _ p d)

/-- The row sum's store: what the accumulator held plus the tile's row summed. -/
theorem pay4_apply (x0 : Vec Ideal S1024x2048 .f32) (acc : Vec Ideal S1024x1 .f32) (p : Fin 1024) :
    k0_pay4 (F := Ideal) x0 acc (ix2 p 0) = acc (ix2 p 0) + ∑ j : Fin 2048, x0 (ix2 p j) := by
  unfold k0_pay4
  refine (congrFun (shapeCast_self _ _) (ix2 p 0)).trans ?_
  refine (addf_apply _ _ _).trans ?_
  refine congrArg (acc (ix2 p 0) + ·) ?_
  refine (shapeCast_apply _ shapeCasts_S1024_S1024x1 (ix2 p 0) (ix1 p) ?_).trans ?_
  · rw [Shape.rowMajor_val_one, Shape.rowMajor_val_two]; simp
  · refine (Ideal.multiReduction_add_single _ _ reduces_S1024x2048_S1024 _ _ (ix1 p)).trans ?_
    exact Finset.sum_congr rfl fun j _ => congrArg x0 (funext fun a => Fin.ext (by match a with | ⟨0, _⟩ => rfl | ⟨1, _⟩ => rfl))

/-! ## The finished block -/

/-- A [1, 64] bias row laid under every row of a [1024, 64] block: at (p, c) it reads the bias at column c. -/
theorem bias_apply (b : Vec Ideal S1x64 .f32) (p : Fin 1024) (c' : Fin 64) :
    broadcastTo S1024x64 (shapeCast S1x64 b shapeCasts_S1x64_S1x64) broadcasts_S1x64_S1024x64 (ix2 p c') = b (ix2 0 c') :=
  (broadcastTo_apply _ broadcasts_S1x64_S1024x64 (ix2 p c') (ix2 0 c')
    (fun a => by match a with | ⟨0, _⟩ => simp | ⟨1, _⟩ => simp)).trans (congrFun (shapeCast_self _ _) _)

/-- The row sums clamped below at one and laid along every column: at (p, d) the clamp of row p's sum. -/
theorem clamp_apply (v : Vec Ideal S1024x1 .f32) (p : Fin 1024) (d : Fin 64) :
    broadcastTo S1024x64 (maximumf (F := Ideal) v (broadcast S1024x1 (Scalar.ofBits (F := Ideal) .f32 0x3F800000#32))) broadcasts_S1024x1_S1024x64 (ix2 p d)
      = max (v (ix2 p 0)) (Ideal.ofBits .f32 0x3F800000#32) :=
  (broadcastTo_apply _ broadcasts_S1024x1_S1024x64 (ix2 p d) (ix2 p 0)
    (fun a => by match a with | ⟨0, _⟩ => simp | ⟨1, _⟩ => simp)).trans rfl

/-- The finished [1024, 128] block at (p, cc): the node's own transform in the left half, the clamped mean's in the right. -/
theorem pay5_apply (v23 : Vec Ideal S1024x1 .f32) (v26 : Vec Ideal S1024x64 .f32) (v30 : Vec Ideal S64x64 .f32)
    (v33 : Vec Ideal S1x64 .f32) (v37 : Vec Ideal S1024x64 .f32) (v39 : Vec Ideal S64x64 .f32) (v42 : Vec Ideal S1x64 .f32)
    (p : Fin 1024) (cc : Fin 128) :
    k0_pay5 (F := Ideal) v23 v26 v30 v33 v37 v39 v42 (ix2 p cc)
      = if h : cc.val < 64 then (∑ d : Fin 64, v37 (ix2 p d) * v39 (ix2 d ⟨cc.val, h⟩)) + v42 (ix2 0 ⟨cc.val, h⟩)
        else (∑ d : Fin 64, Ideal.div (v26 (ix2 p d)) (max (v23 (ix2 p 0)) (Ideal.ofBits .f32 0x3F800000#32))
                * v30 (ix2 d ⟨cc.val - 64, by have := cc.isLt; omega⟩))
              + v33 (ix2 0 ⟨cc.val - 64, by have := cc.isLt; omega⟩) := by
  unfold k0_pay5
  refine (Cert.Lib.ConcatCols.concat_cols_apply (rfl : 128 = 64 + 64) _ _ concatenates_S1024x64_S1024x64_S1024x128_d1 p cc).trans ?_
  by_cases h : cc.val < 64
  · rw [dif_pos h, dif_pos h]
    refine (addf_apply _ _ _).trans ?_
    refine congrArg₂ (· + ·) ?_ (bias_apply v42 p ⟨cc.val, h⟩)
    exact small_apply _ _ p ⟨cc.val, h⟩
  · rw [dif_neg h, dif_neg h]
    refine (addf_apply _ _ _).trans ?_
    refine congrArg₂ (· + ·) ?_ (bias_apply v33 p ⟨cc.val - 64, by have := cc.isLt; omega⟩)
    refine (small_apply _ _ p ⟨cc.val - 64, by have := cc.isLt; omega⟩).trans (Finset.sum_congr rfl fun d _ => ?_)
    exact congrArg (fun z => Ideal.div (v26 (ix2 p d)) z * v30 (ix2 d ⟨cc.val - 64, by have := cc.isLt; omega⟩)) (clamp_apply v23 p d)

end Cert.KernelIdeal.Payload

end
-- ==== Proof.Blocks.lean ====
/-
  The input blocks a grid point sees, read entry by entry off the argument arrays.

  Grid point `t` (0 ≤ t < 128) is row block `t / 8` and column tile `t % 8`.  Its blocks are:

    the aggregation matrix's  [1024, 2048] tile : rows 1024 · (t / 8) + p,  columns 2048 · (t % 8) + j
    the neighbours' features' [2048, 64] tile   : rows 2048 · (t % 8) + j
    the nodes' own features'  [1024, 64] block  : rows 1024 · (t / 8) + p
    the two weight matrices and the two bias rows, whole.

  A bias reaches the kernel as a [1, 64] row: the [64] argument reshaped, which keeps its entries in order.
-/
import proofs.«126047_j55594056680017_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ)

/-- The row of the [16384, ·] arrays that row `p` of point `t`'s row block is. -/
def rowOf (t : Fin cfg0.N) (p : Fin 1024) : Fin 16384 := ⟨1024 * (t.val / 8) + p.val, by have h1 := t.isLt; have h2 : cfg0.N = 128 := N_0; have h3 := p.isLt; omega⟩

/-- The place along a row of the aggregation matrix that place `j` of point `t`'s column tile is. -/
def colOf (t : Fin cfg0.N) (j : Fin 2048) : Fin 16384 := ⟨2048 * (t.val % 8) + j.val, by have h1 := t.isLt; have h2 : cfg0.N = 128 := N_0; have h3 := j.isLt; omega⟩

/-- The printed index maps in closed form, decided over the grid's 128 points. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 8 ∧ win0_7.index t (1 : Fin 2) = 0 :=
  (by decide +kernel : ∀ t : Fin grid0.N, _)

/-! ## The blocks, named, at their literal shapes -/

/-- The aggregation matrix's [1024, 2048] tile at point `t`. -/
def blkA (c : Dev nD) (t : Fin cfg0.N) : Vec F S1024x2048 .f32 := iblk m c 0 t
/-- The neighbours' features' [2048, 64] tile at point `t`. -/
def blkX (c : Dev nD) (t : Fin cfg0.N) : Vec F S2048x64 .f32 := iblk m c 1 t
/-- The nodes' own features' [1024, 64] block at point `t`. -/
def blkSX (c : Dev nD) (t : Fin cfg0.N) : Vec F S1024x64 .f32 := iblk m c 2 t
/-- The nodes' own weight matrix as point `t` sees it. -/
def blkWs (c : Dev nD) (t : Fin cfg0.N) : Vec F S64x64 .f32 := iblk m c 3 t
/-- The neighbours' weight matrix as point `t` sees it. -/
def blkWn (c : Dev nD) (t : Fin cfg0.N) : Vec F S64x64 .f32 := iblk m c 4 t
/-- The nodes' own bias row as point `t` sees it. -/
def blkBs (c : Dev nD) (t : Fin cfg0.N) : Vec F S1x64 .f32 := iblk m c 5 t
/-- The neighbours' bias row as point `t` sees it. -/
def blkBn (c : Dev nD) (t : Fin cfg0.N) : Vec F S1x64 .f32 := iblk m c 6 t

/-- The aggregation matrix's tile at point `t`. -/
theorem blk0_apply (c : Dev nD) (t : Fin cfg0.N) (p : Fin 1024) (j : Fin 2048) :
    blkA m c t (ix2 p j) = m ((c : Thread nD τ).loc main_arg2) (ix2 (rowOf t p) (colOf t j)) := by
  obtain ⟨e0, e1, -⟩ := idx_facts t
  unfold blkA iblk
  rw [View.read_apply]
  show V m c main_arg2 _ = _
  rw [V_main_arg2]

  refine congrArg (m ((c : Thread nD τ).loc main_arg2)) (funext fun a => Fin.ext ?_)
  match a with
  | ⟨0, _⟩ => show win0_0.index t (0 : Fin 2) * 1024 + 1 * p.val = 1024 * (t.val / 8) + p.val; omega
  | ⟨1, _⟩ => show win0_0.index t (1 : Fin 2) * 2048 + 1 * j.val = 2048 * (t.val % 8) + j.val; omega

/-- The neighbours' features' tile at point `t`. -/
theorem blk1_apply (c : Dev nD) (t : Fin cfg0.N) (j : Fin 2048) (d : Fin 64) :
    blkX m c t (ix2 j d) = m ((c : Thread nD τ).loc main_arg1) (ix2 (colOf t j) d) := by
  obtain ⟨-, -, e0, e1, -⟩ := idx_facts t
  unfold blkX iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 2048 + 1 * j.val = 2048 * (t.val % 8) + j.val; omega
  | ⟨1, _⟩ => show win0_1.index t (1 : Fin 2) * 64 + 1 * d.val = d.val; omega

/-- The nodes' own features' block at point `t`. -/
theorem blk2_apply (c : Dev nD) (t : Fin cfg0.N) (p : Fin 1024) (d : Fin 64) :
    blkSX m c t (ix2 p d) = m ((c : Thread nD τ).loc main_arg0) (ix2 (rowOf t p) d) := by
  obtain ⟨-, -, -, -, e0, e1, -⟩ := idx_facts t
  unfold blkSX iblk
  rw [View.read_apply]
  show V m c main_arg0 _ = _
  rw [V_main_arg0]
  refine congrArg (m ((c : Thread nD τ).loc main_arg0)) (funext fun a => Fin.ext ?_)
  match a with
  | ⟨0, _⟩ => show win0_2.index t (0 : Fin 2) * 1024 + 1 * p.val = 1024 * (t.val / 8) + p.val; omega
  | ⟨1, _⟩ => show win0_2.index t (1 : Fin 2) * 64 + 1 * d.val = d.val; omega

/-- The nodes' own weight matrix, whole at every point. -/
theorem blk3_apply (c : Dev nD) (t : Fin cfg0.N) (d cc : Fin 64) :
    blkWs m c t (ix2 d cc) = m ((c : Thread nD τ).loc main_arg3) (ix2 d cc) := by
  obtain ⟨-, -, -, -, -, -, e0, e1, -⟩ := idx_facts t
  unfold blkWs iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 64 + 1 * d.val = d.val; omega
  | ⟨1, _⟩ => show win0_3.index t (1 : Fin 2) * 64 + 1 * cc.val = cc.val; omega

/-- The neighbours' weight matrix, whole at every point. -/
theorem blk4_apply (c : Dev nD) (t : Fin cfg0.N) (d cc : Fin 64) :
    blkWn m c t (ix2 d cc) = m ((c : Thread nD τ).loc main_arg4) (ix2 d cc) := by
  obtain ⟨-, -, -, -, -, -, -, -, e0, e1, -⟩ := idx_facts t
  unfold blkWn iblk
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 2) * 64 + 1 * d.val = d.val; omega
  | ⟨1, _⟩ => show win0_4.index t (1 : Fin 2) * 64 + 1 * cc.val = cc.val; omega

/-- A [64] bias reshaped to a [1, 64] row keeps its entries in order. -/
theorem row_of_bias (b : S64.Idx → Elt F .f32) (cc : Fin 64) :
    shapeCast S1x64 b shapeCasts_S64_S1x64 (ix2 0 cc) = b (ix1 cc) :=
  shapeCast_apply b shapeCasts_S64_S1x64 (ix2 0 cc) (ix1 cc) (by rw [Shape.rowMajor_val_one, Shape.rowMajor_val_two]; simp)

/-- What the region finds in the nodes' own bias row: the bias argument reshaped. -/
theorem V_bias_self (c : Dev nD) :
    (V m c main_v0 : S1x64.Idx → Elt F .f32) = shapeCast S1x64 (m ((c : Thread nD τ).loc main_arg5)) shapeCasts_S64_S1x64 := by
  dsimp only [V, hostOps0]; after_results; rfl

/-- What the region finds in the neighbours' bias row: the bias argument reshaped. -/
theorem V_bias_neigh (c : Dev nD) :
    (V m c main_v1 : S1x64.Idx → Elt F .f32) = shapeCast S1x64 (m ((c : Thread nD τ).loc main_arg6)) shapeCasts_S64_S1x64 := by
  dsimp only [V, hostOps0]; after_results; rfl

/-- The nodes' own bias row at every point. -/
theorem blk5_apply (c : Dev nD) (t : Fin cfg0.N) (cc : Fin 64) :
    blkBs m c t (ix2 0 cc) = m ((c : Thread nD τ).loc main_arg5) (ix1 cc) := by
  obtain ⟨-, -, -, -, -, -, -, -, -, -, e0, e1, -⟩ := idx_facts t
  unfold blkBs iblk
  rw [View.read_apply]
  show (V m c main_v0 : S1x64.Idx → Elt F .f32) _ = _
  rw [V_bias_self]
  refine Eq.trans (congrArg (shapeCast S1x64 (m ((c : Thread nD τ).loc main_arg5)) shapeCasts_S64_S1x64) (funext fun a => Fin.ext ?_)) (row_of_bias _ cc)
  match a with
  | ⟨0, _⟩ => show win0_5.index t (0 : Fin 2) * 1 + 1 * 0 = 0; omega
  | ⟨1, _⟩ => show win0_5.index t (1 : Fin 2) * 64 + 1 * cc.val = cc.val; omega

/-- The neighbours' bias row at every point. -/
theorem blk6_apply (c : Dev nD) (t : Fin cfg0.N) (cc : Fin 64) :
    blkBn m c t (ix2 0 cc) = m ((c : Thread nD τ).loc main_arg6) (ix1 cc) := by
  obtain ⟨-, -, -, -, -, -, -, -, -, -, -, -, e0, e1, -⟩ := idx_facts t
  unfold blkBn iblk
  rw [View.read_apply]
  show (V m c main_v1 : S1x64.Idx → Elt F .f32) _ = _
  rw [V_bias_neigh]
  refine Eq.trans (congrArg (shapeCast S1x64 (m ((c : Thread nD τ).loc main_arg6)) shapeCasts_S64_S1x64) (funext fun a => Fin.ext ?_)) (row_of_bias _ cc)
  match a with
  | ⟨0, _⟩ => show win0_6.index t (0 : Fin 2) * 1 + 1 * 0 = 0; omega
  | ⟨1, _⟩ => show win0_6.index t (1 : Fin 2) * 64 + 1 * cc.val = cc.val; omega

end Cert.KernelIdeal.Blocks

end
-- ==== Proof.Spec.lean ====
/-
  The mean-aggregation layer as ONE function of its argument arrays, over the extended reals.

  With `A` the [16384, 16384] aggregation matrix, `X` the neighbours' features, `SX` the nodes' own features, two
  [64, 64] weight matrices and two biases, the layer's [16384, 128] result is, at row `R`:

    columns 0 … 63  :  (∑ d, SX R d · Ws d c) + bs c                                      (the node's own transform)
    columns 64 … 127:  (∑ d, ((∑ n, A R n · X n d) / max (∑ n, A R n) 1) · Wn d c) + bn c   (the mean over neighbours, transformed)

  The two long sums over `n` run over a row of `A`.  A computation that walks that row in 8 tiles of 2048 places and adds
  each tile's total to a running accumulator holds, after `K` tiles, the sum of the row's first `2048 · K` places
  (`numAfter`, `degAfter`); one more tile adds the tile's own total (`numAfter_succ`, `degAfter_succ`), and after the eighth
  tile the accumulator holds the whole row's sum (`numAfter_eight`, `degAfter_eight`).  Only associativity and
  commutativity of addition are used: no entry needs to be finite.
-/
import Idealize.ShloMosaic.PureOps.Ideal
import Idealize.ShloMosaic.PureOps.Ideal.Laws
import Idealize.ShloMosaic.Lib.ValueIdx
import proofs.«126047_j55594056680017_2_alg».proof.Proof.LibRangeTiles

noncomputable section

namespace Cert.MeanAgg

open Idealize.ShloMosaic Idealize.ShloMosaic.ValueIdx Cert.Lib.RangeTiles

abbrev SNN : Shape := ⟨2, ![16384, 16384]⟩
abbrev SND : Shape := ⟨2, ![16384, 64]⟩
abbrev SDD : Shape := ⟨2, ![64, 64]⟩
abbrev SD : Shape := ⟨1, ![64]⟩
abbrev SNO : Shape := ⟨2, ![16384, 128]⟩

/-! ## A row of the aggregation matrix, summed tile by tile -/

section sums

variable (A : SNN.Idx → EReal) (X : SND.Idx → EReal)

/-- Place `n` of row `R` of `A` times place `n` of column `d` of `X`; zero past the row's end. -/
def numTerm (R : Fin 16384) (d : Fin 64) : ℕ → EReal := ext0 16384 fun n => A (ix2 R n) * X (ix2 n d)

/-- Place `n` of row `R` of `A`; zero past the row's end. -/
def degTerm (R : Fin 16384) : ℕ → EReal := ext0 16384 fun n => A (ix2 R n)

/-- The products of row `R` against column `d`, summed over the row's first `K` tiles of 2048 places. -/
def numAfter (K : ℕ) (R : Fin 16384) (d : Fin 64) : EReal := ∑ n ∈ Finset.range (2048 * K), numTerm A X R d n

/-- Row `R` of `A` summed over its first `K` tiles of 2048 places. -/
def degAfter (K : ℕ) (R : Fin 16384) : EReal := ∑ n ∈ Finset.range (2048 * K), degTerm A R n

theorem numAfter_zero (R : Fin 16384) (d : Fin 64) : numAfter A X 0 R d = 0 := sum_range_tile_zero _ 2048

theorem degAfter_zero (R : Fin 16384) : degAfter A 0 R = 0 := sum_range_tile_zero _ 2048

/-- One more tile adds that tile's total. -/
theorem numAfter_succ (K : ℕ) (R : Fin 16384) (d : Fin 64) :
    numAfter A X (K + 1) R d = numAfter A X K R d + ∑ j : Fin 2048, numTerm A X R d (2048 * K + j.val) :=
  sum_range_tile_succ _ 2048 K

theorem degAfter_succ (K : ℕ) (R : Fin 16384) :
    degAfter A (K + 1) R = degAfter A K R + ∑ j : Fin 2048, degTerm A R (2048 * K + j.val) :=
  sum_range_tile_succ _ 2048 K

/-- Inside tile `K < 8` the extended sequence reads the arrays themselves. -/
theorem numTerm_tile (R : Fin 16384) (d : Fin 64) (K : ℕ) (hK : K < 8) (j : Fin 2048) :
    numTerm A X R d (2048 * K + j.val)
      = A (ix2 R ⟨2048 * K + j.val, by have := j.isLt; omega⟩) * X (ix2 ⟨2048 * K + j.val, by have := j.isLt; omega⟩ d) :=
  ext0_of_lt 16384 _ _ _

theorem degTerm_tile (R : Fin 16384) (K : ℕ) (hK : K < 8) (j : Fin 2048) :
    degTerm A R (2048 * K + j.val) = A (ix2 R ⟨2048 * K + j.val, by have := j.isLt; omega⟩) :=
  ext0_of_lt 16384 _ _ _

/-- After the eighth tile: the whole row. -/
theorem numAfter_eight (R : Fin 16384) (d : Fin 64) :
    numAfter A X 8 R d = ∑ n : Fin 16384, A (ix2 R n) * X (ix2 n d) :=
  sum_range_ext0 16384 _

theorem degAfter_eight (R : Fin 16384) : degAfter A 8 R = ∑ n : Fin 16384, A (ix2 R n) :=
  sum_range_ext0 16384 _

end sums

/-! ## The layer -/

section layer

variable (A : SNN.Idx → EReal) (X SX : SND.Idx → EReal) (Ws Wn : SDD.Idx → EReal) (bs bn : SD.Idx → EReal)

/-- The lower clamp of the row sum: the single-precision number one. -/
abbrev one : EReal := Ideal.ofBits .f32 0x3F800000#32

/-- The mean over neighbours: the row's products summed, divided by the row's sum clamped below at one. -/
def agg (R : Fin 16384) (d : Fin 64) : EReal := Ideal.div (numAfter A X 8 R d) (max (degAfter A 8 R) one)

/-- The node's own features through their weight matrix, plus the bias. -/
def selfPart (R : Fin 16384) (cc : Fin 64) : EReal := (∑ d : Fin 64, SX (ix2 R d) * Ws (ix2 d cc)) + bs (ix1 cc)

/-- The mean over neighbours through its weight matrix, plus the bias. -/
def neighPart (R : Fin 16384) (cc : Fin 64) : EReal := (∑ d : Fin 64, agg A X R d * Wn (ix2 d cc)) + bn (ix1 cc)

/-- Row `R`, column `cc` of the result: the node's own transform in the left half, the neighbours' in the right. -/
def entry (R : Fin 16384) (cc : Fin 128) : EReal :=
  if h : cc.val < 64 then selfPart SX Ws bs R ⟨cc.val, h⟩
  else neighPart A X Wn bn R ⟨cc.val - 64, by have := cc.isLt; omega⟩

/-- The layer's result array. -/
def layer : SNO.Idx → EReal := fun o => entry A X SX Ws Wn bs bn (o 0) (o 1)

end layer

end Cert.MeanAgg

end
-- ==== Proof.Invariant.lean ====
/-
  What the two accumulators hold after every grid point.

  Along row block `t / 8` the kernel visits the column tiles `t % 8 = 0, 1, …, 7` in order.  At tile 0 both accumulators
  are zeroed before the tile is added; at every later tile the tile is added to what the point before left.  So after
  point `t` the numerator accumulator holds, at (p, d), the products of row `1024 · (t / 8) + p` of the aggregation
  matrix against column `d` of the neighbours' features summed over the row's first `t % 8 + 1` tiles, and the row-sum
  accumulator the row itself summed over the same tiles: by induction on the point, one tile per step.
-/
import proofs.«126047_j55594056680017_2_alg».proof.Proof.Pieces
import proofs.«126047_j55594056680017_2_alg».proof.Proof.Payload
import proofs.«126047_j55594056680017_2_alg».proof.Proof.Blocks
import proofs.«126047_j55594056680017_2_alg».proof.Proof.Spec

noncomputable section

namespace Cert.KernelIdeal.Invariant

open Cert.KernelIdeal Cert.KernelIdeal.Gen Cert.KernelIdeal.Pieces Cert.KernelIdeal.Payload Cert.KernelIdeal.Blocks
open Idealize.ShloMosaic Idealize.ShloMosaic.TcCoe Idealize.ShloMosaic.ValueIdx Idealize.SL.Sem
open Cert.MeanAgg

/-! ## The three cases, over the payloads (any float values) -/

section cases

variable {F : FTy → Type} [FloatOps F]
variable (m : (ℓ : Loc nD τ sig) → Buf (Elt F) ℓ)

/-- At the first tile of a row block: zero, plus the tile. -/
theorem at_first (c : Dev nD) (t : Fin cfg0.N) (h0 : t.val % 8 = 0) (h1 : ¬t.val % 8 = 7) :
    (outsAt0 m c t.val t.isLt).2.1 = k0_pay3 (blkA m c t) (blkX m c t) k0_pay1
    ∧ (outsAt0 m c t.val t.isLt).2.2 = k0_pay4 (blkA m c t) k0_pay2 := by
  rw [outsAt0_A m c t h0 h1]
  dsimp only
  exact ⟨sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t) (iblk m c 4 t) (iblk m c 5 t) (iblk m c 6 t), sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t) (iblk m c 4 t) (iblk m c 5 t) (iblk m c 6 t)⟩

/-- At a middle tile: what the point before left, plus the tile. -/
theorem at_middle (c : Dev nD) (t : Fin cfg0.N) (h0 : ¬t.val % 8 = 0) (h1 : ¬t.val % 8 = 7) :
    (outsAt0 m c t.val t.isLt).2.1 = k0_pay3 (blkA m c t) (blkX m c t) (outsAt0 m c (t.val - 1) (Nat.lt_of_le_of_lt (Nat.sub_le _ _) t.isLt)).2.1
    ∧ (outsAt0 m c t.val t.isLt).2.2 = k0_pay4 (blkA m c t) (outsAt0 m c (t.val - 1) (Nat.lt_of_le_of_lt (Nat.sub_le _ _) t.isLt)).2.2 := by
  rw [outsAt0_B m c t h0 h1]
  dsimp only
  exact ⟨sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2⟩

/-- At the last tile: the same for the accumulators, and the finished block computed from the accumulators just stored. -/
theorem at_last (c : Dev nD) (t : Fin cfg0.N) (h0 : ¬t.val % 8 = 0) (h1 : t.val % 8 = 7) :
    (outsAt0 m c t.val t.isLt).2.1 = k0_pay3 (blkA m c t) (blkX m c t) (outsAt0 m c (t.val - 1) (Nat.lt_of_le_of_lt (Nat.sub_le _ _) t.isLt)).2.1
    ∧ (outsAt0 m c t.val t.isLt).2.2 = k0_pay4 (blkA m c t) (outsAt0 m c (t.val - 1) (Nat.lt_of_le_of_lt (Nat.sub_le _ _) t.isLt)).2.2
    ∧ (outsAt0 m c t.val t.isLt).1
        = k0_pay5 (k0_pay4 (blkA m c t) (outsAt0 m c (t.val - 1) (Nat.lt_of_le_of_lt (Nat.sub_le _ _) t.isLt)).2.2) (k0_pay3 (blkA m c t) (blkX m c t) (outsAt0 m c (t.val - 1) (Nat.lt_of_le_of_lt (Nat.sub_le _ _) t.isLt)).2.1)
            (blkWn m c t) (blkBn m c t) (blkSX m c t) (blkWs m c t) (blkBs m c t) := by
  rw [outsAt0_C m c t h0 h1]
  dsimp only
  exact ⟨sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2,
    oC7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2⟩

/-- Past the first tile, whichever case: what the point before left, plus the tile. -/
theorem at_later (c : Dev nD) (t : Fin cfg0.N) (h0 : ¬t.val % 8 = 0) :
    (outsAt0 m c t.val t.isLt).2.1 = k0_pay3 (blkA m c t) (blkX m c t) (outsAt0 m c (t.val - 1) (Nat.lt_of_le_of_lt (Nat.sub_le _ _) t.isLt)).2.1
    ∧ (outsAt0 m c t.val t.isLt).2.2 = k0_pay4 (blkA m c t) (outsAt0 m c (t.val - 1) (Nat.lt_of_le_of_lt (Nat.sub_le _ _) t.isLt)).2.2 := by
  by_cases h1 : t.val % 8 = 7
  · exact ⟨(at_last m c t h0 h1).1, (at_last m c t h0 h1).2.1⟩
  · exact at_middle m c t h0 h1

/-- At the last tile the finished block is computed from the accumulators as that same point leaves them. -/
theorem block_at_last (c : Dev nD) (t : Fin cfg0.N) (h0 : ¬t.val % 8 = 0) (h1 : t.val % 8 = 7) :
    (outsAt0 m c t.val t.isLt).1
      = k0_pay5 (outsAt0 m c t.val t.isLt).2.2 (outsAt0 m c t.val t.isLt).2.1
          (blkWn m c t) (blkBn m c t) (blkSX m c t) (blkWs m c t) (blkBs m c t) := by
  obtain ⟨e1, e2, e3⟩ := at_last m c t h0 h1
  rw [e3, e1, e2]

end cases

/-! ## The running sums, at the ideal values -/

section sums

variable (m : (ℓ : Loc nD τ sig) → Buf (Elt Idealize.ShloMosaic.Ideal) ℓ)

/-- The aggregation matrix and the neighbours' features as launched. -/
abbrev argA (c : Dev nD) : SNN.Idx → EReal := m ((c : Thread nD τ).loc main_arg2)
abbrev argX (c : Dev nD) : SND.Idx → EReal := m ((c : Thread nD τ).loc main_arg1)

/-- The zeroed numerator accumulator is zero everywhere. -/
theorem pay1_zero (p : Fin 1024) (d : Fin 64) : k0_pay1 (F := Idealize.ShloMosaic.Ideal) (ix2 p d) = 0 := by
  unfold k0_pay1
  exact (congrFun (shapeCast_self _ _) (ix2 p d)).trans Ideal.ofBits_zero_f32

/-- The zeroed row-sum accumulator is zero everywhere. -/
theorem pay2_zero (p : Fin 1024) : k0_pay2 (F := Idealize.ShloMosaic.Ideal) (ix2 p 0) = 0 := by
  unfold k0_pay2
  exact (congrFun (shapeCast_self _ _) (ix2 p 0)).trans Ideal.ofBits_zero_f32

/-- The tile's products at point `t` are the places of tile `t % 8` of the row's products. -/
theorem tile_num (c : Dev nD) (t : Fin cfg0.N) (p : Fin 1024) (d : Fin 64) :
    ∑ j : Fin 2048, blkA m c t (ix2 p j) * blkX m c t (ix2 j d)
      = ∑ j : Fin 2048, numTerm (argA m c) (argX m c) (rowOf t p) d (2048 * (t.val % 8) + j.val) :=
  Finset.sum_congr rfl fun j _ => by
    rw [blk0_apply, blk1_apply, numTerm_tile _ _ _ _ (t.val % 8) (Nat.mod_lt _ (by norm_num)) j]
    rfl

/-- The tile's row at point `t` is the places of tile `t % 8` of the row. -/
theorem tile_deg (c : Dev nD) (t : Fin cfg0.N) (p : Fin 1024) :
    ∑ j : Fin 2048, blkA m c t (ix2 p j)
      = ∑ j : Fin 2048, degTerm (argA m c) (rowOf t p) (2048 * (t.val % 8) + j.val) :=
  Finset.sum_congr rfl fun j _ => by
    rw [blk0_apply, degTerm_tile _ _ (t.val % 8) (Nat.mod_lt _ (by norm_num)) j]
    rfl

/-- One tile more in the numerator. -/
theorem step_num (c : Dev nD) (t : Fin cfg0.N) (p : Fin 1024) (d : Fin 64) (acc : Vec Idealize.ShloMosaic.Ideal S1024x64 .f32)
    (K : ℕ) (hK : t.val % 8 = K) (hacc : acc (ix2 p d) = numAfter (argA m c) (argX m c) K (rowOf t p) d) :
    k0_pay3 (F := Idealize.ShloMosaic.Ideal) (blkA m c t) (blkX m c t) acc (ix2 p d)
      = numAfter (argA m c) (argX m c) (K + 1) (rowOf t p) d := by
  subst hK
  refine (pay3_apply (blkA m c t) (blkX m c t) acc p d).trans ?_
  rw [hacc, numAfter_succ]
  exact congrArg (numAfter (argA m c) (argX m c) (t.val % 8) (rowOf t p) d + ·) (tile_num m c t p d)

/-- One tile more in the row sum. -/
theorem step_deg (c : Dev nD) (t : Fin cfg0.N) (p : Fin 1024) (acc : Vec Idealize.ShloMosaic.Ideal S1024x1 .f32)
    (K : ℕ) (hK : t.val % 8 = K) (hacc : acc (ix2 p 0) = degAfter (argA m c) K (rowOf t p)) :
    k0_pay4 (F := Idealize.ShloMosaic.Ideal) (blkA m c t) acc (ix2 p 0) = degAfter (argA m c) (K + 1) (rowOf t p) := by
  subst hK
  refine (pay4_apply (blkA m c t) acc p).trans ?_
  rw [hacc, degAfter_succ]
  exact congrArg (degAfter (argA m c) (t.val % 8) (rowOf t p) + ·) (tile_deg m c t p)

/-- AFTER POINT `n`: both accumulators hold the row's first `n % 8 + 1` tiles. -/
theorem accs_eq (c : Dev nD) : ∀ (n : ℕ) (h : n < cfg0.N) (p : Fin 1024),
    (∀ d : Fin 64, (outsAt0 m c n h).2.1 (ix2 p d) = numAfter (argA m c) (argX m c) (n % 8 + 1) (rowOf ⟨n, h⟩ p) d)
    ∧ (outsAt0 m c n h).2.2 (ix2 p 0) = degAfter (argA m c) (n % 8 + 1) (rowOf ⟨n, h⟩ p)
  | 0, h, p => by
    obtain ⟨e1, e2⟩ := at_first m c ⟨0, h⟩ rfl (by show ¬(0 : ℕ) % 8 = 7; decide)
    refine ⟨fun d => ?_, ?_⟩
    · refine (congrFun e1 (ix2 p d)).trans ?_
      exact step_num m c ⟨0, h⟩ p d _ 0 rfl ((pay1_zero p d).trans (numAfter_zero _ _ _ _).symm)
    · refine (congrFun e2 (ix2 p 0)).trans ?_
      exact step_deg m c ⟨0, h⟩ p _ 0 rfl ((pay2_zero p).trans (degAfter_zero _ _).symm)
  | n + 1, h, p => by
    have hN : cfg0.N = 128 := N_0
    by_cases h0 : (n + 1) % 8 = 0
    · obtain ⟨e1, e2⟩ := at_first m c ⟨n + 1, h⟩ h0 (by show ¬(n + 1) % 8 = 7; omega)
      refine ⟨fun d => ?_, ?_⟩
      · refine (congrFun e1 (ix2 p d)).trans ?_
        rw [h0]
        exact step_num m c ⟨n + 1, h⟩ p d _ 0 h0 ((pay1_zero p d).trans (numAfter_zero _ _ _ _).symm)
      · refine (congrFun e2 (ix2 p 0)).trans ?_
        rw [h0]
        exact step_deg m c ⟨n + 1, h⟩ p _ 0 h0 ((pay2_zero p).trans (degAfter_zero _ _).symm)
    · obtain ⟨e1, e2⟩ := at_later m c ⟨n + 1, h⟩ h0
      obtain ⟨ih1, ih2⟩ := accs_eq c n (Nat.lt_of_succ_lt h) p
      have hk : (n + 1) % 8 = n % 8 + 1 := by omega
      have hr : rowOf ⟨n, Nat.lt_of_succ_lt h⟩ p = rowOf ⟨n + 1, h⟩ p := Fin.ext (by simp only [rowOf]; omega)
      refine ⟨fun d => ?_, ?_⟩
      · refine (congrFun e1 (ix2 p d)).trans ?_
        rw [hk]
        exact step_num m c ⟨n + 1, h⟩ p d _ (n % 8 + 1) hk (by rw [← hr]; exact ih1 d)
      · refine (congrFun e2 (ix2 p 0)).trans ?_
        rw [hk]
        exact step_deg m c ⟨n + 1, h⟩ p _ (n % 8 + 1) hk (by rw [← hr]; exact ih2)

end sums

end Cert.KernelIdeal.Invariant

end
-- ==== Proof.Final.lean ====
/-
  The kernel's result array is the layer.

  The output's [1024, 128] block of row block `i` is written back once, after the row block's last column tile (point
  `8 i + 7`).  By then the two accumulators hold the whole rows' sums, so the finished block holds, at (p, c), the layer's
  entry at row `1024 i + p`, column `c`.  The sixteen written-back blocks tile the [16384, 128] array, so the array after the
  run is the layer of the arguments as launched.
-/
import proofs.«126047_j55594056680017_2_alg».proof.Proof.Invariant
import proofs.«126047_j55594056680017_2_alg».proof.Proof.Gen.KernelIdeal.Value

noncomputable section

namespace Cert.KernelIdeal.Final

open Cert.KernelIdeal Cert.KernelIdeal.Gen Cert.KernelIdeal.Payload Cert.KernelIdeal.Blocks Cert.KernelIdeal.Invariant
open Idealize.ShloMosaic Idealize.ShloMosaic.TcCoe Idealize.ShloMosaic.ValueIdx Idealize.SL.Sem
open Idealize.ShloMosaic.Pipeline (Dat)
open Cert.MeanAgg

variable (m : (ℓ : Loc nD τ sig) → Buf (Elt Idealize.ShloMosaic.Ideal) ℓ) (ρ : Dev nD → PrngReg)

/-- The layer of the argument arrays as launched. -/
def result (c : Dev nD) : SNO.Idx → EReal :=
  layer (m ((c : Thread nD τ).loc main_arg2)) (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6))

/-- The finished block at a row block's last tile, entry by entry: the layer's entry at the block's row. -/
theorem block_entry (c : Dev nD) (t : Fin cfg0.N) (h1 : t.val % 8 = 7) (p : Fin 1024) (cc : Fin 128) :
    (outsAt0 m c t.val t.isLt).1 (ix2 p cc)
      = entry (m ((c : Thread nD τ).loc main_arg2)) (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)) (rowOf t p) cc := by
  have h0 : ¬t.val % 8 = 0 := by omega
  refine (congrFun (block_at_last m c t h0 h1) (ix2 p cc)).trans ?_
  refine (pay5_apply (outsAt0 m c t.val t.isLt).2.2 (outsAt0 m c t.val t.isLt).2.1 (blkWn m c t) (blkBn m c t) (blkSX m c t) (blkWs m c t) (blkBs m c t) p cc).trans ?_
  unfold entry
  obtain ⟨hn, hd⟩ := accs_eq m c t.val t.isLt p
  by_cases h : cc.val < 64
  · rw [dif_pos h, dif_pos h]
    unfold selfPart
    rw [blk5_apply]
    refine congrArg (· + _) (Finset.sum_congr rfl fun d _ => ?_)
    rw [blk2_apply, blk3_apply]
  · rw [dif_neg h, dif_neg h]
    unfold neighPart
    rw [blk6_apply]
    refine congrArg (· + _) (Finset.sum_congr rfl fun d _ => ?_)
    rw [blk4_apply, hn d, hd, h1]
    rfl

/-- WHAT A FLUSHING POINT WRITES BACK is its block of the layer. -/
theorem flushed_eq (c : Dev nD) (t : Fin cfg0.N) (hf : (cfg0.win 7).flush t = true) :
    (dats m 0 c).flushed 7 t = ((cfg0.win 7).blk t).view.read (Elt Idealize.ShloMosaic.Ideal) (result m c) := by
  have h1 : t.val % 8 = 7 := (flush0_7 t).mp hf
  obtain ⟨-, -, -, -, -, -, -, -, -, -, -, -, -, -, e0, e1⟩ := idx_facts t
  rw [Cert.KernelIdeal.Value.flushed7]
  funext y
  obtain ⟨p, cc, rfl⟩ : ∃ (p : Fin 1024) (cc : Fin 128), y = ix2 p cc := ⟨y 0, y 1, eq_ix2 y⟩
  rw [View.read_apply]
  show (outsAt0 m c t.val t.isLt).1 (ix2 p cc) = result m c (((cfg0.win 7).blk t).view.emb (ix2 p cc))
  rw [block_entry m c t h1 p cc]

  show entry _ _ _ _ _ _ _ (rowOf t p) cc = entry _ _ _ _ _ _ _ ((((cfg0.win 7).blk t).view.emb (ix2 p cc)) 0) ((((cfg0.win 7).blk t).view.emb (ix2 p cc)) 1)
  congr 1
  · apply Fin.ext
    show 1024 * (t.val / 8) + p.val = win0_7.index t (0 : Fin 2) * 1024 + 1 * p.val
    omega
  · apply Fin.ext
    show cc.val = win0_7.index t (1 : Fin 2) * 128 + 1 * cc.val
    omega

/-- An index of the result array is in point `t`'s block iff each coordinate is in the block's range on its axis. -/
theorem mem_blk (t : Fin cfg0.N) (i : S16384x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v2).slice (win0_7.rect t)).set ↔ _
  rw [View.set_slice_whole, Rect.mem_set_unit]
  exact Iff.rfl

/-- Every entry of the result array lies in the block its row block writes back after its last tile. -/
theorem cover (i : S16384x128.Idx) :
    ∃ t : Fin cfg0.N, (cfg0.win 7).flush t = true ∧ i ∈ ((cfg0.win 7).blk t).view.set := by
  have hi0 : (i 0).val < 16384 := (i 0).isLt
  have hi1 : (i 1).val < 128 := (i 1).isLt
  have hN : cfg0.N = 128 := N_0
  have hb : 8 * ((i 0).val / 1024) + 7 < cfg0.N := by omega
  obtain ⟨-, -, -, -, -, -, -, -, -, -, -, -, -, -, e0, e1⟩ := idx_facts ⟨8 * ((i 0).val / 1024) + 7, hb⟩
  refine ⟨⟨8 * ((i 0).val / 1024) + 7, hb⟩, (flush0_7 _).mpr (by show (8 * ((i 0).val / 1024) + 7) % 8 = 7; omega), ?_⟩
  rw [mem_blk]
  intro a
  match a with
  | ⟨0, _⟩ =>
    show win0_7.index ⟨8 * ((i 0).val / 1024) + 7, hb⟩ (0 : Fin 2) * 1024 ≤ (i 0).val ∧ (i 0).val < win0_7.index ⟨8 * ((i 0).val / 1024) + 7, hb⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_7.index ⟨8 * ((i 0).val / 1024) + 7, hb⟩ (1 : Fin 2) * 128 ≤ (i 1).val ∧ (i 1).val < win0_7.index ⟨8 * ((i 0).val / 1024) + 7, hb⟩ (1 : Fin 2) * 128 + 128
    rw [e1]
    omega

/-- THE RESULT ARRAY after the run is the layer of the arguments. -/
theorem final (c : Dev nD) : (dats m 0 c).arrAt 7 cfg0.N = result m c :=
  (dats m 0 c).arrAt_eq_of_cover 7 (result m c) (fun t hf => flushed_eq m c t hf) (cover)

/-- The run, read: the result array at the layer of the arguments, the arguments unchanged. -/
theorem run : θ_run defs (onTc (τ := τ) (main (F := Idealize.ShloMosaic.Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Final

end
-- ==== Proof.RefValue.lean ====
/-
  The reference computes the same layer.

  Read entry by entry, the reference's result at row `R` is, in columns 0 … 63, `(∑ d, SX R d · Ws d c) + bs c`, and in
  columns 64 … 127, `(∑ d, ((∑ n, A R n · X n d) / max 1 (0 + ∑ n, A R n)) · Wn d c) + bn c`.  That is the layer of the
  specification: `max` is commutative, the host sum's initial value is zero, and the whole-row sums are the running sums
  after the eighth tile.
-/
import proofs.«126047_j55594056680017_2_alg».proof.Proof.Gen.ReferenceIdeal.Read
import proofs.«126047_j55594056680017_2_alg».proof.Proof.LibConcatCols
import proofs.«126047_j55594056680017_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.MeanAgg

variable (x0 x1 : SND.Idx → EReal) (x2 : SNN.Idx → EReal) (x3 x4 : SDD.Idx → EReal) (x5 x6 : SD.Idx → EReal)

/-! ## The stages' index maps at an entry given by its coordinates -/

theorem lidx6 (R : Fin 16384) (c' k : Fin 64) : lidx_main_v6 (ix2 R c') k = ix2 R k :=
  funext fun a => by match a with | ⟨0, _⟩ => rfl | ⟨1, _⟩ => rfl
theorem ridx6 (R : Fin 16384) (c' k : Fin 64) : ridx_main_v6 (ix2 R c') k = ix2 k c' :=
  funext fun a => by match a with | ⟨0, _⟩ => rfl | ⟨1, _⟩ => rfl
theorem lidx10 (R : Fin 16384) (c' k : Fin 64) : lidx_main_v10 (ix2 R c') k = ix2 R k :=
  funext fun a => by match a with | ⟨0, _⟩ => rfl | ⟨1, _⟩ => rfl
theorem ridx10 (R : Fin 16384) (c' k : Fin 64) : ridx_main_v10 (ix2 R c') k = ix2 k c' :=
  funext fun a => by match a with | ⟨0, _⟩ => rfl | ⟨1, _⟩ => rfl
theorem lidx3 (R : Fin 16384) (d : Fin 64) (n : Fin 16384) : lidx_main_v3 (ix2 R d) n = ix2 R n :=
  funext fun a => by match a with | ⟨0, _⟩ => rfl | ⟨1, _⟩ => rfl
theorem ridx3 (R : Fin 16384) (d : Fin 64) (n : Fin 16384) : ridx_main_v3 (ix2 R d) n = ix2 n d :=
  funext fun a => by match a with | ⟨0, _⟩ => rfl | ⟨1, _⟩ => rfl
theorem idx0 (R : Fin 16384) (d : Fin 64) (n : Fin 16384) : idx_main_v0 (idx_main_v1 (idx_main_v4 (ix2 R d))) n = ix2 R n :=
  funext fun a => by match a with | ⟨0, _⟩ => rfl | ⟨1, _⟩ => rfl
theorem idx7 (R : Fin 16384) (c' : Fin 64) : idx_main_v7 (idx_main_v8 (ix2 R c')) = ix1 c' :=
  funext fun a => by match a with | ⟨0, _⟩ => rfl
theorem idx11 (R : Fin 16384) (c' : Fin 64) : idx_main_v11 (idx_main_v12 (ix2 R c')) = ix1 c' :=
  funext fun a => by match a with | ⟨0, _⟩ => rfl

/-! ## The two halves -/

/-- The left half: the node's own features through their weights, plus the bias. -/
theorem self_eq (R : Fin 16384) (c' : Fin 64) :
    val_main_v9 (F := Idealize.ShloMosaic.Ideal) x0 x3 x5 (ix2 R c') = selfPart x0 x3 x5 R c' := by
  rw [val_main_v9_apply, val_main_v6_apply, val_main_v8_apply, val_main_v7_apply]
  simp only [lidx6, ridx6, idx7, Ideal.addf_def]
  rfl

/-- The mean over neighbours at (R, d): the reference divides the whole-row product sum by the clamped whole-row sum. -/
theorem agg_eq (R : Fin 16384) (d : Fin 64) :
    val_main_v5 (F := Idealize.ShloMosaic.Ideal) x1 x2 (ix2 R d) = agg x2 x1 R d := by
  rw [val_main_v5_apply, val_main_v3_apply, val_main_v4_apply, val_main_v2_apply, val_main_call0_v1_apply,
    val_main_call0_v0_apply, val_main_cst_0_apply, val_main_v1_apply, val_main_v0_apply, val_main_cst_apply]

  simp only [lidx3, ridx3, idx0, Ideal.hostDivf_def, Ideal.maximumf_def, Ideal.ofBits_def, Ideal.ofBits_zero_f32, zero_add]
  unfold agg
  rw [numAfter_eight, degAfter_eight, max_comm]

/-- The right half: the mean over neighbours through its weights, plus the bias. -/
theorem neigh_eq (R : Fin 16384) (c' : Fin 64) :
    val_main_v13 (F := Idealize.ShloMosaic.Ideal) x1 x2 x4 x6 (ix2 R c') = neighPart x2 x1 x4 x6 R c' := by
  rw [val_main_v13_apply, val_main_v10_apply, val_main_v12_apply, val_main_v11_apply]
  simp only [lidx10, ridx10, idx11, Ideal.addf_def, agg_eq]
  rfl

/-- The reference's result array is the layer. -/
theorem ref_eq :
    val_main_v14 (F := Idealize.ShloMosaic.Ideal) x0 x1 x2 x3 x4 x5 x6 = layer x2 x1 x0 x3 x4 x5 x6 := by
  funext o
  obtain ⟨R, cc, rfl⟩ : ∃ (R : Fin 16384) (cc : Fin 128), o = ix2 R cc := ⟨o 0, o 1, eq_ix2 o⟩
  unfold val_main_v14
  refine (Cert.Lib.ConcatCols.concat_cols_apply (rfl : 128 = 64 + 64) _ _ concatenates_S16384x64_S16384x64_S16384x128_d1 R cc).trans ?_
  show _ = entry x2 x1 x0 x3 x4 x5 x6 R cc
  unfold entry
  by_cases h : cc.val < 64
  · rw [dif_pos h, dif_pos h]
    exact self_eq x0 x3 x5 R ⟨cc.val, h⟩
  · rw [dif_neg h, dif_neg h]
    exact neigh_eq x1 x2 x4 x6 R ⟨cc.val - 64, by have := cc.isLt; omega⟩

end Cert.ReferenceIdeal.RefValue

end
-- ==== Proof.lean ====
/-
  A mean-aggregation layer of a graph network, computed tile by tile, equals its plain reference over the extended reals.

  With `A` the [16384, 16384] aggregation matrix, `X` and `SX` the neighbours' and the nodes' own [16384, 64] features, two
  [64, 64] weight matrices `Ws`, `Wn` and two biases `bs`, `bn`, both programs produce the [16384, 128] array whose row `R` is

    columns 0 … 63  :  (∑ d, SX R d · Ws d c) + bs c
    columns 64 … 127:  (∑ d, ((∑ n, A R n · X n d) / max (∑ n, A R n) 1) · Wn d c) + bn c.

  The reference computes the two sums over `n` whole.  The kernel walks each block of 1024 rows through 8 column tiles of
  2048 places, adding each tile's products and each tile's row total to two accumulators it zeroes at the first tile, and
  at the eighth tile clamps, divides, applies both weight matrices and writes the block back.  At the ideal values a change
  of float format is the identity and a matrix product is the exact sum of products, so the two sides differ only in how a
  row's sum is bracketed: eight tile totals added in order against one sum over the row.  Addition on the extended reals is
  associative and commutative with infinities present, so the two agree for every input; finiteness of the inputs is not
  used.

  The modules: the tile-by-tile sum law (LibRangeTiles), two equal-width blocks joined along columns read at an entry
  (LibConcatCols), the layer and its running sums (Spec), what each grid point leaves behind as pure values (Pieces), those
  values read entry by entry (Payload), the input blocks read off the argument arrays (Blocks), the accumulators after
  every point by induction (Invariant), the result array after the run (Final), and the reference read entry by entry
  (RefValue).  The idealization rewrote no operation, so its soundness claim is trivially true.
-/
import proofs.«126047_j55594056680017_2_alg».proof.Defs
import proofs.«126047_j55594056680017_2_alg».proof.Proof.Gen.Kernel
import proofs.«126047_j55594056680017_2_alg».proof.Proof.Gen.Kernel.Skeleton
import proofs.«126047_j55594056680017_2_alg».proof.Proof.Gen.Kernel.Launch
import proofs.«126047_j55594056680017_2_alg».proof.Proof.Gen.Kernel.Points
import proofs.«126047_j55594056680017_2_alg».proof.Proof.Gen.Kernel.Frame
import proofs.«126047_j55594056680017_2_alg».proof.Proof.Gen.KernelIdeal
import proofs.«126047_j55594056680017_2_alg».proof.Proof.Gen.KernelIdeal.Skeleton
import proofs.«126047_j55594056680017_2_alg».proof.Proof.Gen.KernelIdeal.Launch
import proofs.«126047_j55594056680017_2_alg».proof.Proof.Gen.KernelIdeal.Points
import proofs.«126047_j55594056680017_2_alg».proof.Proof.Gen.KernelIdeal.Frame
import proofs.«126047_j55594056680017_2_alg».proof.Proof.Gen.ReferenceIdeal
import proofs.«126047_j55594056680017_2_alg».proof.Proof.Gen.Pre_finite_inputs
import proofs.«126047_j55594056680017_2_alg».proof.Proof.Gen.KernelIdeal.Value
import proofs.«126047_j55594056680017_2_alg».proof.Proof.Gen.ReferenceIdeal.Run
import proofs.«126047_j55594056680017_2_alg».proof.Proof.Gen.ReferenceIdeal.Read
import proofs.«126047_j55594056680017_2_alg».proof.Proof.LibRangeTiles
import proofs.«126047_j55594056680017_2_alg».proof.Proof.LibConcatCols
import proofs.«126047_j55594056680017_2_alg».proof.Proof.Final
import proofs.«126047_j55594056680017_2_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the seven arguments both programs end with the layer of those arguments: the kernel's
    result array by the running sums (`Final.run`), the reference's by reading its stages entry by entry (`ref_eq`). -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq (F := Ideal) _ _ _ _ _ _ _).trans ?_
  refine (Cert.ReferenceIdeal.RefValue.ref_eq _ _ _ _ _ _ _).trans ?_
  rw [(hagree c).1, (hagree c).2.1, (hagree c).2.2.1, (hagree c).2.2.2.1, (hagree c).2.2.2.2.1,
    (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
